-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1024x512 : Shape := ⟨2, ![1024, 512]⟩
abbrev S1024x1 : Shape := ⟨2, ![1024, 1]⟩
abbrev S1024 : Shape := ⟨1, ![1024]⟩

abbrev nBuf : Space → Nat
  | .hbm => 67
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .i1⟩
  | .hbm, ⟨14, _⟩ => ⟨S8192x8192, .i1⟩
  | .hbm, ⟨15, _⟩ => ⟨S8192x8192, .i1⟩
  | .hbm, ⟨16, _⟩ => ⟨S8192x8192, .i32⟩
  | .hbm, ⟨17, _⟩ => ⟨S_, .i1⟩
  | .hbm, ⟨18, _⟩ => ⟨S_, .i32⟩
  | .hbm, ⟨19, _⟩ => ⟨S8192, .i1⟩
  | .hbm, ⟨20, _⟩ => ⟨S8192, .i32⟩
  | .hbm, ⟨21, _⟩ => ⟨S8192x8192, .i32⟩
  | .hbm, ⟨22, _⟩ => ⟨S_, .i1⟩
  | .hbm, ⟨23, _⟩ => ⟨S_, .i32⟩
  | .hbm, ⟨24, _⟩ => ⟨S8192, .i1⟩
  | .hbm, ⟨25, _⟩ => ⟨S8192, .i32⟩
  | .hbm, ⟨26, _⟩ => ⟨S_, .i1⟩
  | .hbm, ⟨27, _⟩ => ⟨S8192, .i1⟩
  | .hbm, ⟨28, _⟩ => ⟨S_, .i1⟩
  | .hbm, ⟨29, _⟩ => ⟨S8192, .i1⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x512, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x512, .f32⟩
  | .hbm, ⟨49, _⟩ => ⟨S8192x1, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_c : Ref sig .tc := ⟨.hbm, 17, rfl⟩
abbrev main_call0_c_0 : Ref sig .tc := ⟨.hbm, 18, rfl⟩
abbrev main_call0_v1_0 : Ref sig .tc := ⟨.hbm, 19, rfl⟩
abbrev main_v13 : Ref sig .tc := ⟨.hbm, 20, rfl⟩
abbrev main_call1_v0 : Ref sig .tc := ⟨.hbm, 21, rfl⟩
abbrev main_call1_c : Ref sig .tc := ⟨.hbm, 22, rfl⟩
abbrev main_call1_c_0 : Ref sig .tc := ⟨.hbm, 23, rfl⟩
abbrev main_call1_v1_0 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  reducesTo_S8192_S_d0 : S8192.ReducesTo [0] S_
  gather_S8192x512_S8192x1_S8192x512_1_0_n_n_0_1_1512_wf : GatherDims.WF S8192x512 S8192x1 S8192x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 89
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .i1⟩
  | .hbm, ⟨14, _⟩ => ⟨S8192x8192, .i1⟩
  | .hbm, ⟨15, _⟩ => ⟨S8192x8192, .i1⟩
  | .hbm, ⟨16, _⟩ => ⟨S8192x8192, .i32⟩
  | .hbm, ⟨17, _⟩ => ⟨S_, .i1⟩
  | .hbm, ⟨18, _⟩ => ⟨S_, .i32⟩
  | .hbm, ⟨19, _⟩ => ⟨S8192, .i1⟩
  | .hbm, ⟨20, _⟩ => ⟨S8192, .i32⟩
  | .hbm, ⟨21, _⟩ => ⟨S8192x8192, .i32⟩
  | .hbm, ⟨22, _⟩ => ⟨S_, .i1⟩
  | .hbm, ⟨23, _⟩ => ⟨S_, .i32⟩
  | .hbm, ⟨24, _⟩ => ⟨S8192, .i1⟩
  | .hbm, ⟨25, _⟩ => ⟨S8192, .i32⟩
  | .hbm, ⟨26, _⟩ => ⟨S_, .i1⟩
  | .hbm, ⟨27, _⟩ => ⟨S8192, .i1⟩
  | .hbm, ⟨28, _⟩ => ⟨S_, .i1⟩
  | .hbm, ⟨29, _⟩ => ⟨S8192, .i1⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x512, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .i32⟩
  | .hbm, ⟨73, _⟩ => ⟨S_, .i32⟩
  | .hbm, ⟨74, _⟩ => ⟨S_, .i32⟩
  | .hbm, ⟨75, _⟩ => ⟨S_, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_c : Ref sig .tc := ⟨.hbm, 17, rfl⟩
abbrev main_call0_c_0 : Ref sig .tc := ⟨.hbm, 18, rfl⟩
abbrev main_call0_v1_0 : Ref sig .tc := ⟨.hbm, 19, rfl⟩
abbrev main_v13 : Ref sig .tc := ⟨.hbm, 20, rfl⟩
abbrev main_call1_v0 : Ref sig .tc := ⟨.hbm, 21, rfl⟩
abbrev main_call1_c : Ref sig .tc := ⟨.hbm, 22, rfl⟩
abbrev main_call1_c_0 : Ref sig .tc := ⟨.hbm, 23, rfl⟩
abbrev main_call1_v1_0 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_call2_v0 : Ref sig .tc := ⟨.hbm, 53, rfl⟩
abbrev main_call2_cst : Ref sig .tc := ⟨.hbm, 54, rfl⟩
abbrev main_call2_v1 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_call3_v0 : Ref sig .tc := ⟨.hbm, 61, rfl⟩
abbrev main_call3_cst : Ref sig .tc := ⟨.hbm, 62, rfl⟩
abbrev main_call3_v1 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_cst_10 : Ref sig .tc := ⟨.hbm, 75, rfl⟩
abbrev main_call4_v0 : Ref sig .tc := ⟨.hbm, 76, rfl⟩
abbrev main_call4_v1 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_c_12 : Ref sig .tc := ⟨.hbm, 81, rfl⟩
abbrev main_v49 : Ref sig .tc := ⟨.hbm, 82, rfl⟩
abbrev main_c_13 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S_S8192x512 : S_.BroadcastsInDim S8192x512 (![] : Fin 0 → Fin S8192x512.rank)
  reducesTo_S8192x512_S8192_d1 : S8192x512.ReducesTo [1] S8192
  natLt_1_32 : 1 < 32
  reducesTo_S8192_S_d0 : S8192.ReducesTo [0] S_
  gather_S8192x512_S8192x1_S8192x512_1_0_n_n_0_1_1512_wf : GatherDims.WF S8192x512 S8192x1 S8192x512 [1] [0] [] [0] [] 1 ![1, 512]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf

class Facts : Prop extends Facts₀ where

variable [Facts]
-- ==== Proof.Selection.lean ====
/-
  The triplet selection both programs share, as pure functions of the label vector and the feature matrix.

  For N = 8192 anchors with integer labels `tgt`, the N×N matrix `sameLabel` marks the pairs (i, j) with equal labels;
  a positive candidate for anchor i is a j ≠ i with the same label (`posMask`), a negative candidate any j with another
  label (`negMask`). The chosen partner of each kind is the FIRST candidate in its row (`firstTrue`: a two-operand
  reduction along the row keeping the larger flag and, among equal flags, the smaller column number), an anchor is
  `valid` when it has both kinds of candidates, and `positive` / `negative` are the feature rows of the chosen partners
  (a row gather, the index first normalised as a possibly negative index would be).

  Nothing here is ever opened by the certificate: the kernel's program and the reference apply these same operations
  to the same arguments, so the equivalence only needs that both sides' intermediate arrays ARE these functions.
-/
import Idealize.ShloMosaic.Lib.StableHlo
import Idealize.ShloMosaic.PureOps

noncomputable section

namespace Triplet.Selection

open Idealize.ShloMosaic

/-- The feature matrix [N, D]. -/
abbrev Feat : Shape := ⟨2, ![8192, 512]⟩
/-- One entry per anchor. -/
abbrev Rows : Shape := ⟨1, ![8192]⟩
/-- One entry per anchor, as a column. -/
abbrev Col : Shape := ⟨2, ![8192, 1]⟩
/-- One entry per anchor, as a row. -/
abbrev RowVec : Shape := ⟨2, ![1, 8192]⟩
/-- One entry per ordered pair of anchors. -/
abbrev Pairs : Shape := ⟨2, ![8192, 8192]⟩
/-- A scalar. -/
abbrev Sc : Shape := ⟨0, ![]⟩

theorem rows_col : Rows.BroadcastsInDim Col (![0] : Fin 1 → Fin Col.rank) := by decide
theorem rows_rowVec : Rows.BroadcastsInDim RowVec (![1] : Fin 1 → Fin RowVec.rank) := by decide
theorem col_pairs : Col.BroadcastsInDim Pairs (![0, 1] : Fin 2 → Fin Pairs.rank) := by decide
theorem rowVec_pairs : RowVec.BroadcastsInDim Pairs (![0, 1] : Fin 2 → Fin Pairs.rank) := by decide
theorem sc_pairs : Sc.BroadcastsInDim Pairs (![] : Fin 0 → Fin Pairs.rank) := by decide
theorem sc_rows : Sc.BroadcastsInDim Rows (![] : Fin 0 → Fin Rows.rank) := by decide
theorem pairs_rows : Pairs.ReducesTo [1] Rows := by decide
theorem sc_pos : 0 < Sc.numel := by decide
theorem rowGather_wf : GatherDims.WF Feat Col Feat [1] [0] [] [0] [] 1 ![1, 512] := by decide

/-- The row reduction's combiner on (flag, column) pairs: keep the pair with the larger flag, and of two equal flags
    the one with the smaller column. -/
def firstCombine : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

/-- Gathering whole rows of the feature matrix, one per anchor, by a column of row numbers. -/
def rowGather : GatherDims Feat Col Feat where
  offsetDims := [1]
  collapsedSliceDims := [0]
  operandBatchingDims := []
  startIndicesBatchingDims := []
  startIndexMap := [0]
  indexVectorDim := 1
  sliceSizes := ![1, 512]
  wf := rowGather_wf

/-- (i, j) ↦ whether anchors i and j carry the same label. -/
def sameLabel (tgt : IVec Rows 32) : IVec Pairs 1 :=
  cmpi .eq (broadcastInDim Pairs ![0, 1] col_pairs (broadcastInDim Col ![0] rows_col tgt))
    (broadcastInDim Pairs ![0, 1] rowVec_pairs (broadcastInDim RowVec ![1] rows_rowVec tgt))

/-- (i, j) ↦ whether i ≠ j. -/
def offDiagonal : IVec Pairs 1 :=
  noti (cmpi .eq (addi (iotaInDim Pairs 32 0) (broadcastInDim Pairs ![] sc_pairs (constantI Sc 32 0#32))) (iotaInDim Pairs 32 1))

/-- The candidates for a positive partner: the same label, another anchor. -/
def posMask (tgt : IVec Rows 32) : IVec Pairs 1 := andi (sameLabel tgt) offDiagonal

/-- The candidates for a negative partner: another label. -/
def negMask (tgt : IVec Rows 32) : IVec Pairs 1 := noti (sameLabel tgt)

/-- The column of the first set flag in each row (column 0 for a row with none). -/
def firstTrue (mask : IVec Pairs 1) : IVec Rows 32 :=
  fun j => (Host.reduce2 firstCombine mask (iotaInDim Pairs 32 1) (constantI Sc 1 0#1) (constantI Sc 32 0#32) pairs_rows sc_pos j).2

/-- Whether each row has a set flag. -/
def anyTrue (mask : IVec Pairs 1) : IVec Rows 1 :=
  Host.reduce IntOp.ori mask (constantI Sc 1 0#1) pairs_rows sc_pos

/-- An anchor counts when it has a positive and a negative candidate. -/
def valid (tgt : IVec Rows 32) : IVec Rows 1 := andi (anyTrue (posMask tgt)) (anyTrue (negMask tgt))

/-- A row number normalised as a possibly negative index: a negative one counts from the end. -/
def wrapIndex (i : IVec Rows 32) : IVec Rows 32 :=
  select (cmpi .slt i (broadcastInDim Rows ![] sc_rows (constantI Sc 32 0#32)))
    (addi i (broadcastInDim Rows ![] sc_rows (constantI Sc 32 8192#32))) i

variable {F : FTy → Type} [FloatOps F]

/-- The feature rows at the given row numbers, one per anchor. -/
def rowsAt (x : FVec F Feat .f32) (i : IVec Rows 32) : FVec F Feat .f32 :=
  Host.gather rowGather x (broadcastInDim Col ![0] rows_col (wrapIndex i))

/-- Each anchor's chosen positive partner's features. -/
def positive (x : FVec F Feat .f32) (tgt : IVec Rows 32) : FVec F Feat .f32 := rowsAt x (firstTrue (posMask tgt))

/-- Each anchor's chosen negative partner's features. -/
def negative (x : FVec F Feat .f32) (tgt : IVec Rows 32) : FVec F Feat .f32 := rowsAt x (firstTrue (negMask tgt))

end Triplet.Selection

end
-- ==== Proof.Loss.lean ====
/-
  The triplet margin loss as pure functions of the anchors, their partners and the validity flags.

  For anchor rows x, positive rows p and negative rows n (each [N, D]), the distance of a pair of rows is
  ‖a − b + ε‖₂ with ε added to every coordinate of the difference (`dist`), the per-anchor loss is the hinge
  max(‖x − p + ε‖ − ‖x − n + ε‖ + 1, 0) (`hinge`), invalid anchors contribute 0 (`masked`), and the result is the
  sum of the masked losses divided by max(#valid, 1), or 0 when no anchor is valid.

  The two programs count the valid anchors differently. The reference adds the flags as 32-bit integers, compares
  the integer with 0, takes its integer maximum with 1 and converts that to a float (`meanByWordCount`); the kernel's
  program converts each flag to a float, adds the floats, and compares and maximises as floats (`meanByFloatCount`).
  Everything else is the same text on both sides.
-/
import proofs.«111762_j76759655514708_2_alg».proof.Proof.Selection

noncomputable section

namespace Triplet.Loss

open Idealize.ShloMosaic Triplet.Selection

theorem sc_feat : Sc.BroadcastsInDim Feat (![] : Fin 0 → Fin Feat.rank) := by decide
theorem feat_rows : Feat.ReducesTo [1] Rows := by decide
theorem rows_sc : Rows.ReducesTo [0] Sc := by decide
theorem one_lt : 1 < 32 := by decide

variable {F : FTy → Type} [FloatOps F]

/-- Row by row, ‖a − b + ε‖₂: the square root of the row sum of the squared coordinates of a − b + ε. -/
def dist (a b : FVec F Feat .f32) : FVec F Rows .f32 :=
  Host.sqrt (Host.reduceAdd
    (mulf (addf (subf a b) (broadcastInDim Feat ![] sc_feat (constant Sc .f32 0x358637BD#32)))
      (addf (subf a b) (broadcastInDim Feat ![] sc_feat (constant Sc .f32 0x358637BD#32))))
    (constant Sc .f32 0x00000000#32) feat_rows sc_pos)

/-- Per anchor, max(d(x, p) − d(x, n) + 1, 0). -/
def hinge (x p n : FVec F Feat .f32) : FVec F Rows .f32 :=
  maximumf (addf (subf (dist x p) (dist x n)) (broadcastInDim Rows ![] sc_rows (constant Sc .f32 0x3F800000#32)))
    (broadcastInDim Rows ![] sc_rows (constant Sc .f32 0x00000000#32))

/-- The per-anchor losses with the invalid anchors' replaced by 0. -/
def masked (v : IVec Rows 1) (l : FVec F Rows .f32) : FVec F Rows .f32 :=
  select v l (broadcastInDim Rows ![] sc_rows (id (constant Sc .f32 0x00000000#32)))

/-- Their sum. -/
def total (v : IVec Rows 1) (l : FVec F Rows .f32) : FVec F Sc .f32 :=
  Host.reduceAdd (masked v l) (constant Sc .f32 0x00000000#32) rows_sc sc_pos

/-- The number of valid anchors as a 32-bit word: the flags widened and added. -/
def wordCount (v : IVec Rows 1) : IVec Sc 32 :=
  Host.reduce IntOp.addi (extui 32 v one_lt) (constantI Sc 32 0#32) rows_sc sc_pos

/-- The number of valid anchors as a float: the flags converted and added. -/
def floatCount (v : IVec Rows 1) : FVec F Sc .f32 :=
  Host.reduceAdd (uitofp .f32 v) (constant Sc .f32 0x00000000#32) rows_sc sc_pos

/-- The mean loss over the valid anchors, the count taken as an integer (the reference's spelling). -/
def meanByWordCount (v : IVec Rows 1) (l : FVec F Rows .f32) : FVec F Sc .f32 :=
  select (cmpi .sgt (wordCount v) (constantI Sc 32 0#32))
    (Host.divf (total v l) (sitofp .f32 (maxsi (wordCount v) (constantI Sc 32 1#32))))
    (constant Sc .f32 0x00000000#32)

/-- The mean loss over the valid anchors, the count taken as a float (the kernel program's spelling). -/
def meanByFloatCount (v : IVec Rows 1) (l : FVec F Rows .f32) : FVec F Sc .f32 :=
  select (cmpf .ogt (floatCount (F := F) v) (constant Sc .f32 0x00000000#32))
    (Host.divf (total v l) (maximumf (floatCount (F := F) v) (constant Sc .f32 0x3F800000#32)))
    (constant Sc .f32 0x00000000#32)

end Triplet.Loss

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.RowLoss.lean ====
/-
  One anchor's loss as a function of three rows, and the two spellings of it read at a row.

  For rows a, p, n of D extended reals, the squared shifted distance is Σ_k ((a_k − b_k) + ε)² (`sqDist`), and the
  anchor's loss is max((√sqDist(a,p) − √sqDist(a,n)) + 1, 0) (`rowLoss`), with ε, 1 and 0 the values the programs'
  three literal words denote — the same words on both sides, so ε is never evaluated.

  The reference computes it on whole [N, D] arrays with a host row sum from the literal 0 (`hinge_apply`); the kernel
  body computes it on a block with a lane reduction kept as a column (`hingeCol_apply`). Both are the same sum over
  the row's coordinates: a sum in a commutative monoid needs no hypothesis on its terms, so nothing here uses that
  the inputs are finite.
-/
import proofs.«111762_j76759655514708_2_alg».proof.Proof.Loss
import proofs.«111762_j76759655514708_2_alg».proof.Proof.LibMatrixAtIndex
import Idealize.ShloMosaic.Lib.IdealHost

noncomputable section

open scoped BigOperators

namespace Triplet.Row

open Idealize.ShloMosaic Idealize.ShloMosaic.ValueIdx Cert.KernelIdeal.Pay Triplet Triplet.Selection

/-- Σ_k ((a_k − b_k) + ε)². -/
def sqDist {d : Nat} (a b : Fin d → EReal) : EReal :=
  ∑ k : Fin d, ((a k - b k) + Ideal.ofBits .f32 0x358637BD#32) * ((a k - b k) + Ideal.ofBits .f32 0x358637BD#32)

/-- max((√sqDist(a,p) − √sqDist(a,n)) + 1, 0). -/
def rowLoss {d : Nat} (a p n : Fin d → EReal) : EReal :=
  max ((Ideal.sqrt (sqDist a p) - Ideal.sqrt (sqDist a n)) + Ideal.ofBits .f32 0x3F800000#32) (Ideal.ofBits .f32 0x00000000#32)

/-- Row r of a matrix. -/
abbrev row {a b : Nat} (X : (⟨2, ![a, b]⟩ : Shape).Idx → EReal) (r : Fin a) : Fin b → EReal := fun k => X (ix2 r k)

/-! ## The reference's spelling, at an anchor -/

theorem feat_rows_red : Feat.Reduces [1] Rows := by decide

/-- The host's sum along the rows from an initial scalar, at row r: the scalar plus the sum of the row's entries. -/
theorem hostRowSum_apply {a b : Nat} (src : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd src init h' hu (ix1 r) = init (Shape.Idx.first hu) + ∑ k : Fin b, src (ix2 r k) :=
  (hostReduceAdd_apply src init h' hu (ix1 r)).trans ((Ideal.hostReduceAdd_single h' h src _ (ix1 r)).trans
    (congrArg (init (Shape.Idx.first hu) + ·) (Finset.sum_congr rfl fun k _ => congrArg src (lift_row h r k))))

/-- The host's row distance at anchor r. -/
theorem dist_apply (a b : FVec Ideal Feat .f32) (r : Fin 8192) :
    Loss.dist a b (ix1 r) = Ideal.sqrt (sqDist (row a r) (row b r)) := by
  unfold Loss.dist
  show Ideal.sqrt (Host.reduceAdd (F := Ideal) (φ := .f32) _ _ Loss.feat_rows sc_pos (ix1 r)) = _
  rw [hostRowSum_apply _ _ Loss.feat_rows feat_rows_red sc_pos r, constant_apply, Ideal.ofBits_zero_f32, zero_add]
  refine congrArg Ideal.sqrt (Finset.sum_congr rfl fun k _ => ?_)
  rw [mulf_apply, addf_apply, subf_apply, broadcastInDim_scalar_apply, constant_apply]

/-- The reference's per-anchor loss at anchor r. -/
theorem hinge_apply (x p n : FVec Ideal Feat .f32) (r : Fin 8192) :
    Loss.hinge x p n (ix1 r) = rowLoss (row x r) (row p r) (row n r) := by
  unfold Loss.hinge
  rw [maximumf_apply, addf_apply, subf_apply, dist_apply, dist_apply, broadcastInDim_scalar_apply,
    broadcastInDim_scalar_apply, constant_apply, constant_apply]
  rfl

/-! ## The kernel body's spelling, at a row of a block -/

section Block
variable {a b : Nat}

/-- √ of a row sum of squares kept as a column, at row r. -/
theorem normCol_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hφ : FKind.Formats .f32) (hadd : (0x00000000#32 : BitVec 32) = FKind.add.neutral .f32 hφ) (r : Fin a) :
    sqrt (shapeCast ⟨2, ![a, 1]⟩ (multiReduction .add [1] ⟨1, ![a]⟩ (mulf Y Y) 0x00000000#32 hR hφ hadd) hC) (ix2 r (0 : Fin 1))
      = Ideal.sqrt (∑ k : Fin b, Y (ix2 r k) * Y (ix2 r k)) := by
  show Ideal.sqrt (shapeCast ⟨2, ![a, 1]⟩ (multiReduction .add [1] ⟨1, ![a]⟩ (mulf Y Y) 0x00000000#32 hR hφ hadd) hC (ix2 r (0 : Fin 1))) = _
  rw [shapeCast_col_apply, rowSum_apply]
  rfl

/-- The body's hinge of the two kept-column distances, at row r of the block. -/
theorem hingeCol_apply (X P N : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hφ : FKind.Formats .f32) (hadd : (0x00000000#32 : BitVec 32) = FKind.add.neutral .f32 hφ) (r : Fin a) :
    maximumf
        (addf
          (subf
            (sqrt (shapeCast ⟨2, ![a, 1]⟩ (multiReduction .add [1] ⟨1, ![a]⟩
              (mulf (addf (subf X P) (broadcast ⟨2, ![a, b]⟩ (Scalar.ofBits (F := Ideal) .f32 0x358637BD#32)))
                (addf (subf X P) (broadcast ⟨2, ![a, b]⟩ (Scalar.ofBits (F := Ideal) .f32 0x358637BD#32))))
              0x00000000#32 hR hφ hadd) hC))
            (sqrt (shapeCast ⟨2, ![a, 1]⟩ (multiReduction .add [1] ⟨1, ![a]⟩
              (mulf (addf (subf X N) (broadcast ⟨2, ![a, b]⟩ (Scalar.ofBits (F := Ideal) .f32 0x358637BD#32)))
                (addf (subf X N) (broadcast ⟨2, ![a, b]⟩ (Scalar.ofBits (F := Ideal) .f32 0x358637BD#32))))
              0x00000000#32 hR hφ hadd) hC)))
          (broadcast ⟨2, ![a, 1]⟩ (Scalar.ofBits (F := Ideal) .f32 0x3F800000#32)))
        (broadcast ⟨2, ![a, 1]⟩ (Scalar.ofBits (F := Ideal) .f32 0x00000000#32)) (ix2 r (0 : Fin 1))
      = rowLoss (row X r) (row P r) (row N r) := by
  rw [maximumf_apply, addf_apply, subf_apply, normCol_apply, normCol_apply]
  rfl

end Block

end Triplet.Row

end
-- ==== Proof.Payload.lean ====
/-
  What the kernel body stores at a row of its block.

  The body loads three [1024, 512] blocks — anchors, positive rows, negative rows —, forms both shifted differences,
  reduces their squares along the lanes, keeps each row sum as a [1024, 1] column, takes square roots, and stores the
  hinge of their difference. Read at row r of the block, the stored value is `rowLoss` of the three loaded rows r.
-/
import proofs.«111762_j76759655514708_2_alg».proof.Proof.Gen.KernelIdeal.Skeleton
import proofs.«111762_j76759655514708_2_alg».proof.Proof.RowLoss
import Idealize.ShloMosaic.Lib.Pipeline.Value

noncomputable section

namespace Triplet.Kernel

open Cert.KernelIdeal Cert.KernelIdeal.Gen Idealize.ShloMosaic Idealize.ShloMosaic.ValueIdx
open Triplet

/-- The stored column at row r of the block. -/
theorem payload_apply (x0 x1 x2 : Vec Ideal S1024x512 .f32) (r : Fin 1024) :
    k0_pay1 (F := Ideal) x0 x1 x2 (ix2 r (0 : Fin 1)) = Row.rowLoss (Row.row x0 r) (Row.row x1 r) (Row.row x2 r) := by
  unfold k0_pay1
  dsimp only
  rw [shapeCast_self, shapeCast_self]
  exact Row.hingeCol_apply x0 x1 x2 _ _ _ _ r

end Triplet.Kernel

end
-- ==== Proof.LossArray.lean ====
/-
  The array of per-anchor losses the region leaves.

  The grid has 8 points; point t stages rows 1024·t … 1024·t + 1023 of the anchors, the positive rows and the negative
  rows (all three windows move together, block column 0), and writes back rows 1024·t … 1024·t + 1023 of the [8192, 1]
  loss column. What it writes at row r of its block is `rowLoss` of the three staged rows r, which are rows
  1024·t + r of the three arrays: so every block written back is a block of ONE function of the three arrays,
  `lossColumn`, and since the 8 blocks tile the column, the column ends holding that function.
-/
import proofs.«111762_j76759655514708_2_alg».proof.Proof.Gen.KernelIdeal.Frame
import proofs.«111762_j76759655514708_2_alg».proof.Proof.Payload
import Idealize.ShloMosaic.Lib.Pipeline.Value

set_option maxRecDepth 16384

noncomputable section

namespace Triplet.Kernel

open Cert.KernelIdeal Cert.KernelIdeal.Gen Idealize.ShloMosaic Idealize.ShloMosaic.TcCoe Idealize.ShloMosaic.ValueIdx
open Idealize.SL.Sem
open Idealize.ShloMosaic.Pipeline (Dat Cfg Window)
open Triplet

variable (m : (ℓ : Loc nD τ sig) → Buf (Elt Ideal) ℓ)

theorem offsets_zero : (![0, 0] : Fin 2 → Nat) = fun _ => 0 := funext fun a => by fin_cases a <;> rfl

/-- The anchor an entry of the loss column belongs to. -/
abbrev anchorOf (i : S8192x1.Idx) : Fin 8192 := ⟨(i 0).val, (i 0).isLt⟩

/-- The loss column as one function of the three arrays: at anchor i, `rowLoss` of the three rows i. -/
def lossColumn (x p n : S8192x512.Idx → EReal) : S8192x1.Idx → EReal :=
  fun i => Row.rowLoss (Row.row x (anchorOf i)) (Row.row p (anchorOf i)) (Row.row n (anchorOf i))

/-- The printed index maps, decided over the grid: the three input windows sit on the output's block row, in block
    column 0, and the output's block row is at most 7. -/
theorem index_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 7 ∧ win0_3.index t (1 : Fin 2) = 0 :=
  (by decide +kernel : ∀ t : Fin grid0.N, _)

/-- Every block row of the column is some point's. -/
theorem index_onto : ∀ q : Fin 8, ∃ t : Fin cfg0.N, win0_3.index t = ![q.val, 0] :=
  (by decide +kernel : ∀ q : Fin 8, ∃ t : Fin grid0.N, win0_3.index t = ![q.val, 0])

/-- Row r of the anchors' block at point t is the anchors' row the output's block places r at. -/
theorem block_row0 (c : Dev nD) (t : Fin cfg0.N) (r : Fin 1024) :
    Row.row (iblk m c 0 t) r
      = Row.row (V m c main_arg0) (anchorOf (((cfg0.win 3).blk t).view.emb (ix2 r (0 : Fin 1)))) := by
  obtain ⟨e0, e1, -, -, -, -, -, -⟩ := index_facts t
  funext k
  show V m c main_arg0 (((cfg0.win 0).blk t).view.emb (ix2 r k))
      = V m c main_arg0 (ix2 (anchorOf (((cfg0.win 3).blk t).view.emb (ix2 r (0 : Fin 1)))) k)
  refine congrArg (V m c main_arg0) ?_
  funext a; apply Fin.ext
  match a with
  | ⟨0, _⟩ => show win0_0.index t (0 : Fin 2) * 1024 + 1 * r.val = win0_3.index t (0 : Fin 2) * 1024 + 1 * r.val; omega
  | ⟨1, _⟩ => show win0_0.index t (1 : Fin 2) * 512 + 1 * k.val = k.val; omega

/-- The same for the positive rows' block. -/
theorem block_row1 (c : Dev nD) (t : Fin cfg0.N) (r : Fin 1024) :
    Row.row (iblk m c 1 t) r
      = Row.row (V m c main_v24) (anchorOf (((cfg0.win 3).blk t).view.emb (ix2 r (0 : Fin 1)))) := by
  obtain ⟨-, -, e0, e1, -, -, -, -⟩ := index_facts t
  funext k
  show V m c main_v24 (((cfg0.win 1).blk t).view.emb (ix2 r k))
      = V m c main_v24 (ix2 (anchorOf (((cfg0.win 3).blk t).view.emb (ix2 r (0 : Fin 1)))) k)
  refine congrArg (V m c main_v24) ?_
  funext a; apply Fin.ext
  match a with
  | ⟨0, _⟩ => show win0_1.index t (0 : Fin 2) * 1024 + 1 * r.val = win0_3.index t (0 : Fin 2) * 1024 + 1 * r.val; omega
  | ⟨1, _⟩ => show win0_1.index t (1 : Fin 2) * 512 + 1 * k.val = k.val; omega

/-- The same for the negative rows' block. -/
theorem block_row2 (c : Dev nD) (t : Fin cfg0.N) (r : Fin 1024) :
    Row.row (iblk m c 2 t) r
      = Row.row (V m c main_v31) (anchorOf (((cfg0.win 3).blk t).view.emb (ix2 r (0 : Fin 1)))) := by
  obtain ⟨-, -, -, -, e0, e1, -, -⟩ := index_facts t
  funext k
  show V m c main_v31 (((cfg0.win 2).blk t).view.emb (ix2 r k))
      = V m c main_v31 (ix2 (anchorOf (((cfg0.win 3).blk t).view.emb (ix2 r (0 : Fin 1)))) k)
  refine congrArg (V m c main_v31) ?_
  funext a; apply Fin.ext
  match a with
  | ⟨0, _⟩ => show win0_2.index t (0 : Fin 2) * 1024 + 1 * r.val = win0_3.index t (0 : Fin 2) * 1024 + 1 * r.val; omega
  | ⟨1, _⟩ => show win0_2.index t (1 : Fin 2) * 512 + 1 * k.val = k.val; omega

/-- What point t writes back is block t of the loss column of the three arrays as the region finds them. -/
theorem flushed_eq (c : Dev nD) (t : Fin cfg0.N) :
    (dats m 0 c).flushed 3 t
      = ((cfg0.win 3).blk t).view.read (Elt Ideal) (lossColumn (V m c main_arg0) (V m c main_v24) (V m c main_v31)) := by
  show (cfg0.win 3).cut (grid0.coords t) ((dats m 0 c).after 3 t) = _
  rw [after0_3]
  unfold out0_3
  rw [View.canon_unit_zero offsets_zero]
  simp only [View.ld_unit_zero (S := S1024x512) offsets_zero]
  funext j
  obtain ⟨r, u, rfl⟩ : ∃ (r : Fin 1024) (u : Fin 1), j = ix2 r u := ⟨j 0, j 1, eq_ix2 j⟩
  obtain rfl : u = 0 := Subsingleton.elim _ _
  show k0_pay1 (iblk m c 0 t) (iblk m c 1 t) (iblk m c 2 t) (ix2 r (0 : Fin 1))
      = lossColumn (V m c main_arg0) (V m c main_v24) (V m c main_v31) (((cfg0.win 3).blk t).view.emb (ix2 r (0 : Fin 1)))
  refine (payload_apply (iblk m c 0 t) (iblk m c 1 t) (iblk m c 2 t) r).trans ?_
  unfold lossColumn
  rw [block_row0 m c t r, block_row1 m c t r, block_row2 m c t r]

/-- An entry of the column is in point t's block iff each coordinate is in the block's range on its axis. -/
theorem mem_block (t : Fin cfg0.N) (i : S8192x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v32).slice (win0_3.rect t)).set ↔ _
  rw [View.set_slice_whole, Rect.mem_set_unit]
  exact Iff.rfl

/-- Every entry of the column is in the block of the point whose block row is its row divided by 1024. -/
theorem covered (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1 ≤ (i 1).val ∧ (i 1).val < win0_3.index t (1 : Fin 2) * 1 + 1
    omega

/-- After the run the loss column holds `lossColumn` of the three arrays the region found. -/
theorem lossArray_eq (c : Dev nD) :
    (dats m 0 c).arrAt 3 cfg0.N = lossColumn (V m c main_arg0) (V m c main_v24) (V m c main_v31) :=
  (dats m 0 c).arrAt_eq_of_cover 3 _ (fun t _ => flushed_eq m c t) covered

end Triplet.Kernel

end
-- ==== Proof.KernelEntry.lean ====
/-
  What the kernel's region finds when it is entered.

  The kernel's program performs the triplet selection on the host before launching its one region: the same 47
  operations as the reference. So on entry the flags' buffer holds `Selection.valid` of the labels, and the arrays
  the second and third windows stage hold `Selection.positive` and `Selection.negative` of the features and labels;
  the first window stages the features themselves. Each fact is the operations' text composed; none is opened.
-/
import proofs.«111762_j76759655514708_2_alg».proof.Proof.Gen.KernelIdeal.Frame
import proofs.«111762_j76759655514708_2_alg».proof.Proof.Selection

noncomputable section

namespace Triplet.Kernel

open Cert.KernelIdeal Cert.KernelIdeal.Gen Idealize.ShloMosaic Idealize.ShloMosaic.TcCoe Idealize.SL.Sem Idealize.ShloMosaic.StableHlo
open Triplet

variable {F : FTy → Type} [FloatOps F]

section Prefix

attribute [local irreducible] Host.reduce Host.reduce2 Host.gather

set_option maxRecDepth 8192 in
set_option maxHeartbeats 2000000 in
/-- After the host lines before the region the flags' buffer holds `valid` of the labels. -/
theorem pre_valid (X : Valuation τ sig (Elt F)) :
    after (List.flatten [hostOps0, hostOps0_1, hostOps0_2, hostOps0_3]) X (Proc.devRef .tc main_v17)
      = Selection.valid (X (Proc.devRef .tc main_arg1)) := by
  simp only [hostOps0, hostOps0_1, hostOps0_2, hostOps0_3, List.flatten_cons, List.flatten_nil, List.append_nil, List.cons_append,
    List.nil_append]
  after_results_simp
  rfl

set_option maxRecDepth 8192 in
set_option maxHeartbeats 2000000 in
/-- After them the first gather's buffer holds the positive partners' rows. -/
theorem pre_positive (X : Valuation τ sig (Elt F)) :
    after (List.flatten [hostOps0, hostOps0_1, hostOps0_2, hostOps0_3]) X (Proc.devRef .tc main_v24)
      = Selection.positive (F := F) (X (Proc.devRef .tc main_arg0)) (X (Proc.devRef .tc main_arg1)) := by
  simp only [hostOps0, hostOps0_1, hostOps0_2, hostOps0_3, List.flatten_cons, List.flatten_nil, List.append_nil, List.cons_append,
    List.nil_append]
  after_results_simp
  rfl

set_option maxRecDepth 8192 in
set_option maxHeartbeats 2000000 in
/-- After them the second gather's buffer holds the negative partners' rows. -/
theorem pre_negative (X : Valuation τ sig (Elt F)) :
    after (List.flatten [hostOps0, hostOps0_1, hostOps0_2, hostOps0_3]) X (Proc.devRef .tc main_v31)
      = Selection.negative (F := F) (X (Proc.devRef .tc main_arg0)) (X (Proc.devRef .tc main_arg1)) := by
  simp only [hostOps0, hostOps0_1, hostOps0_2, hostOps0_3, List.flatten_cons, List.flatten_nil, List.append_nil, List.cons_append,
    List.nil_append]
  after_results_simp
  rfl

end Prefix

variable (m : (ℓ : Loc nD τ sig) → Buf (Elt F) ℓ)

/-- On entry the flags' buffer holds `valid` of the labels as launched. -/
theorem entry_valid (c : Dev nD) :
    V0 m c (Proc.devRef .tc main_v17) = Selection.valid (m ((c : Thread nD τ).loc main_arg1)) :=
  pre_valid (fun b => m (c, b))

/-- On entry the second window's array holds the positive partners' rows. -/
theorem entry_positive (c : Dev nD) :
    V m c main_v24 = Selection.positive (F := F) (m ((c : Thread nD τ).loc main_arg0)) (m ((c : Thread nD τ).loc main_arg1)) :=
  pre_positive (fun b => m (c, b))

/-- On entry the third window's array holds the negative partners' rows. -/
theorem entry_negative (c : Dev nD) :
    V m c main_v31 = Selection.negative (F := F) (m ((c : Thread nD τ).loc main_arg0)) (m ((c : Thread nD τ).loc main_arg1)) :=
  pre_negative (fun b => m (c, b))

end Triplet.Kernel

end
-- ==== Proof.KernelValue.lean ====
/-
  What the kernel's program computes, as the shared pure functions of its two arguments.

  After the region the host reshapes the [8192, 1] loss column to a vector, replaces the invalid anchors' entries by
  0, sums, counts the valid anchors as a float sum, and forms the guarded mean: `Loss.meanByFloatCount` of the flags
  and the reshaped column (`tail_result`, the operations' text composed). The flags were left by the host lines before
  the region (`entry_valid`), the column by the region (`lossArray_eq`), whose three arrays are the features and the
  two gathered arrays. The reshaped column is the reference's per-anchor loss vector (`column_eq_hinge`): at anchor r
  both are `rowLoss` of the three rows r. So the frame run, re-posted, ends with the result at
  `meanByFloatCount (valid tgt) (hinge x (positive x tgt) (negative x tgt))`.
-/
import proofs.«111762_j76759655514708_2_alg».proof.Proof.LossArray
import proofs.«111762_j76759655514708_2_alg».proof.Proof.KernelEntry
import proofs.«111762_j76759655514708_2_alg».proof.Proof.Loss

set_option maxRecDepth 16384

noncomputable section

namespace Triplet.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)
open Triplet

theorem col_rows : S8192x1.ShapeCasts Selection.Rows := by decide

/-- The loss column read as a vector. -/
def columnAsVector {F : FTy → Type} [FloatOps F] (col : FVec F S8192x1 .f32) : FVec F Selection.Rows .f32 :=
  shapeCast Selection.Rows col col_rows

section Tail

variable {F : FTy → Type} [FloatOps F]

attribute [local irreducible] Host.reduce Host.reduceAdd

set_option maxHeartbeats 2000000 in
/-- The host lines after the region leave the result at the guarded mean, by float count, of the reshaped column they
    find, under the flags they find. -/
theorem tail_result (W : Valuation τ sig (Elt F)) :
    after (List.flatten [hostOps1, hostOps1_1, hostOps1_2, hostOps1_3]) W (Proc.devRef .tc main_v41)
      = Loss.meanByFloatCount (F := F) (W (Proc.devRef .tc main_v17)) (columnAsVector (W (Proc.devRef .tc main_v32))) := by
  simp only [hostOps1, hostOps1_1, hostOps1_2, hostOps1_3, List.flatten_cons, List.flatten_nil, List.append_nil, List.cons_append,
    List.nil_append]
  after_results_simp
  rfl

end Tail

/-! ## The reshaped column is the reference's loss vector -/

/-- A one-column matrix read as a vector, at i. -/
theorem shapeCast_dropCol_apply {α : Type} {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Anchor by anchor the region's column, reshaped, is the hinge of the host's row distances. -/
theorem column_eq_hinge (x p n : FVec Ideal Selection.Feat .f32) :
    columnAsVector (F := Ideal) (lossColumn x p n) = Loss.hinge x p n := by
  funext i
  obtain ⟨r, rfl⟩ : ∃ r : Fin 8192, i = ix1 r := ⟨i 0, eq_ix1 i⟩
  rw [Row.hinge_apply]
  unfold columnAsVector
  rw [shapeCast_dropCol_apply]
  rfl

/-! ## The run, read -/

variable (m : (ℓ : Loc nD τ sig) → Buf (Elt Ideal) ℓ) (ρ : Dev nD → PrngReg)

/-- The kernel program's result as one function of its arguments. -/
def out (x : FVec Ideal Selection.Feat .f32) (tgt : IVec Selection.Rows 32) : FVec Ideal Selection.Sc .f32 :=
  Loss.meanByFloatCount (Selection.valid tgt) (Loss.hinge x (Selection.positive x tgt) (Selection.negative x tgt))

/-- What the lines after the region leave in the result buffer. -/
theorem result_eq (c : Dev nD) :
    Pipeline.afterTail₀ cfgs (dats m) 0 (V0 m) [hostOps1, hostOps1_1, hostOps1_2, hostOps1_3] c main_v41
      = out (m ((c : Thread nD τ).loc main_arg0)) (m ((c : Thread nD τ).loc main_arg1)) := by
  unfold Pipeline.afterTail₀
  refine (tail_result _).trans ?_
  unfold out
  refine congrArg₂ (Loss.meanByFloatCount (F := Ideal)) ?_ ?_
  · exact (Pipeline.withArrays_of_ne _ c (V0 m c) _ main_v17 (by exact (by decide : ∀ w, Pipeline.arrRef spec0 w ≠ main_v17))).trans
      (entry_valid m c)
  · rw [← column_eq_hinge]
    refine congrArg (columnAsVector (F := Ideal)) ?_
    refine (Pipeline.withArrays_arr spec0 launch0.win.arr_inj c _ _ 3).trans ((lossArray_eq m c).trans ?_)
    rw [V_main_arg0, entry_positive, entry_negative]

set_option backward.isDefEq.respectTransparency.types false in
/-- The frame run re-posted: the result at `out` of the arguments as launched, the arguments unchanged. -/
theorem run : θ_run defs (onTc (τ := τ) (main (F := Ideal))) ⟨m, fun _ => 0, ρ⟩ fun r => ∀ c : Dev nD,
      r.2.mem ((c.tc : Thread nD τ).loc main_v41) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v41 (Pipeline.mem_restRefs_of main_v41 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Triplet.Kernel

end
-- ==== Proof.RefProgram.lean ====
/-
  The reference program as a straight line of host operations, and its run.

  The printed reference computes everything on the host: the triplet selection (47 operations, the two first-match
  reductions being calls of a helper whose five lines are listed where it is called), then the two distances, each
  `sqrt` of a row sum of squares (a helper of four lines, called twice), the hinge, the masked sum, the count of valid
  anchors as an integer sum, and the guarded mean (two more helper calls). Listed in order with every call unfolded
  at its call site over that call's own buffers, @main is one sequence of 87 operations; every weakly fair execution
  then ends with each buffer at the fold of the operations' results over the launch contents.
-/
import proofs.«111762_j76759655514708_2_alg».proof.Proof.Gen.ReferenceIdeal
import Idealize.ShloMosaic.Lib.StableHlo.Run

noncomputable section

namespace Triplet.Reference

open Cert.ReferenceIdeal Cert.ReferenceIdeal.Gen Idealize.ShloMosaic Idealize.ShloMosaic.TcCoe Idealize.SL.Sem Idealize.ShloMosaic.StableHlo

variable {F : FTy → Type} [FloatOps F]

/-- The selection: label comparison, the two candidate masks, the first candidate of each kind per row, which anchors
    have both, and the two row gathers. -/
abbrev opsA : List (HloOp τ sig (Elt F)) :=
  [ unary main_arg1 main_v0 (broadcastInDim S8192x1 ![0] bcast_S8192_S8192x1_0),
    unary main_arg1 main_v1 (broadcastInDim S1x8192 ![1] bcast_S8192_S1x8192_1),
    unary main_v0 main_v2 (broadcastInDim S8192x8192 ![0, 1] bcast_S8192x1_S8192x8192_0_1),
    unary main_v1 main_v3 (broadcastInDim S8192x8192 ![0, 1] bcast_S1x8192_S8192x8192_0_1),
    binary main_v2 main_v3 main_v4 (cmpi .eq),
    nullary main_v5 (iotaInDim S8192x8192 32 0),
    nullary main_v6 (iotaInDim S8192x8192 32 1),
    nullary main_c (constantI S_ 32 0#32),
    unary main_c main_v7 (broadcastInDim S8192x8192 ![] bcast_S_S8192x8192),
    binary main_v5 main_v7 main_v8 addi,
    binary main_v8 main_v6 main_v9 (cmpi .eq),
    unary main_v9 main_v10 noti,
    binary main_v4 main_v10 main_v11 andi,
    unary main_v4 main_v12 noti,
    TRef.nullary main_call0.v0 (iotaInDim S8192x8192 32 1),
    TRef.nullary main_call0.c (constantI S_ 1 0#1),
    TRef.nullary main_call0.c_0 (constantI S_ 32 0#32),
    TRef.quaternary (.of main_v11) main_call0.v0 main_call0.c main_call0.c_0 main_call0.v1_0 (fun x y u v j => (Host.reduce2 reducer_argmax_i1_i32 x y u v reducesTo_S8192x8192_S8192_d1 h_S_ j).1),
    TRef.quaternary (.of main_v11) main_call0.v0 main_call0.c main_call0.c_0 main_call0.v1_1 (fun x y u v j => (Host.reduce2 reducer_argmax_i1_i32 x y u v reducesTo_S8192x8192_S8192_d1 h_S_ j).2),
    TRef.nullary main_call1.v0 (iotaInDim S8192x8192 32 1),
    TRef.nullary main_call1.c (constantI S_ 1 0#1),
    TRef.nullary main_call1.c_0 (constantI S_ 32 0#32),
    TRef.quaternary (.of main_v12) main_call1.v0 main_call1.c main_call1.c_0 main_call1.v1_0 (fun x y u v j => (Host.reduce2 reducer_argmax_i1_i32 x y u v reducesTo_S8192x8192_S8192_d1 h_S_ j).1),
    TRef.quaternary (.of main_v12) main_call1.v0 main_call1.c main_call1.c_0 main_call1.v1_1 (fun x y u v j => (Host.reduce2 reducer_argmax_i1_i32 x y u v reducesTo_S8192x8192_S8192_d1 h_S_ j).2),
    nullary main_c_0 (constantI S_ 1 0#1),
    binary main_v11 main_c_0 main_v15 (fun x v => Host.reduce IntOp.ori x v reducesTo_S8192x8192_S8192_d1 h_S_),
    nullary main_c_1 (constantI S_ 1 0#1),
    binary main_v12 main_c_1 main_v16 (fun x v => Host.reduce IntOp.ori x v reducesTo_S8192x8192_S8192_d1 h_S_),
    binary main_v15 main_v16 main_v17 andi,
    nullary main_c_2 (constantI S_ 32 0#32),
    unary main_c_2 main_v18 (broadcastInDim S8192 ![] bcast_S_S8192),
    binary main_v13 main_v18 main_v19 (cmpi .slt),
    nullary main_c_3 (constantI S_ 32 8192#32),
    unary main_c_3 main_v20 (broadcastInDim S8192 ![] bcast_S_S8192),
    binary main_v13 main_v20 main_v21 addi,
    ternary main_v19 main_v21 main_v13 main_v22 select,
    unary main_v22 main_v23 (broadcastInDim S8192x1 ![0] bcast_S8192_S8192x1_0),
    binary main_arg0 main_v23 main_v24 (fun x i => Host.gather gather_S8192x512_S8192x1_S8192x512_1_0_n_n_0_1_1512 x i),
    nullary main_c_4 (constantI S_ 32 0#32),
    unary main_c_4 main_v25 (broadcastInDim S8192 ![] bcast_S_S8192),
    binary main_v14 main_v25 main_v26 (cmpi .slt),
    nullary main_c_5 (constantI S_ 32 8192#32),
    unary main_c_5 main_v27 (broadcastInDim S8192 ![] bcast_S_S8192),
    binary main_v14 main_v27 main_v28 addi,
    ternary main_v26 main_v28 main_v14 main_v29 select,
    unary main_v29 main_v30 (broadcastInDim S8192x1 ![0] bcast_S8192_S8192x1_0),
    binary main_arg0 main_v30 main_v31 (fun x i => Host.gather gather_S8192x512_S8192x1_S8192x512_1_0_n_n_0_1_1512 x i) ]

/-- The loss: the two distances, the hinge per anchor, the masked sum, the count of valid anchors, the guarded mean. -/
abbrev opsB : List (HloOp τ sig (Elt F)) :=
  [ binary main_arg0 main_v24 main_v32 subf,
    nullary main_cst (constant S_ .f32 0x358637BD#32),
    unary main_cst main_v33 (broadcastInDim S8192x512 ![] bcast_S_S8192x512),
    binary main_v32 main_v33 main_v34 addf,
    TRef.binary (.of main_v34) (.of main_v34) main_call2.v0 mulf,
    TRef.nullary main_call2.cst (constant S_ .f32 0x00000000#32),
    TRef.binary main_call2.v0 main_call2.cst main_call2.v1 (fun x v => Host.reduceAdd x v reducesTo_S8192x512_S8192_d1 h_S_),
    TRef.unary main_call2.v1 main_call2.v2 Host.sqrt,
    binary main_arg0 main_v31 main_v36 subf,
    nullary main_cst_6 (constant S_ .f32 0x358637BD#32),
    unary main_cst_6 main_v37 (broadcastInDim S8192x512 ![] bcast_S_S8192x512),
    binary main_v36 main_v37 main_v38 addf,
    TRef.binary (.of main_v38) (.of main_v38) main_call3.v0 mulf,
    TRef.nullary main_call3.cst (constant S_ .f32 0x00000000#32),
    TRef.binary main_call3.v0 main_call3.cst main_call3.v1 (fun x v => Host.reduceAdd x v reducesTo_S8192x512_S8192_d1 h_S_),
    TRef.unary main_call3.v1 main_call3.v2 Host.sqrt,
    binary main_v35 main_v39 main_v40 subf,
    nullary main_cst_7 (constant S_ .f32 0x3F800000#32),
    unary main_cst_7 main_v41 (broadcastInDim S8192 ![] bcast_S_S8192),
    binary main_v40 main_v41 main_v42 addf,
    nullary main_cst_8 (constant S_ .f32 0x00000000#32),
    unary main_cst_8 main_v43 (broadcastInDim S8192 ![] bcast_S_S8192),
    binary main_v42 main_v43 main_v44 maximumf,
    unary main_v17 main_v45 (extui 32 · natLt_1_32),
    nullary main_c_9 (constantI S_ 32 0#32),
    binary main_v45 main_c_9 main_v46 (fun x v => Host.reduce IntOp.addi x v reducesTo_S8192_S_d0 h_S_),
    nullary main_cst_10 (constant S_ .f32 0x00000000#32),
    TRef.unary (.of main_cst_10) main_call4.v0 id,
    TRef.unary main_call4.v0 main_call4.v1 (broadcastInDim S8192 ![] bcast_S_S8192),
    TRef.ternary (.of main_v17) (.of main_v44) main_call4.v1 main_call4.v2 select,
    nullary main_cst_11 (constant S_ .f32 0x00000000#32),
    binary main_v47 main_cst_11 main_v48 (fun x v => Host.reduceAdd x v reducesTo_S8192_S_d0 h_S_),
    nullary main_c_12 (constantI S_ 32 0#32),
    binary main_v46 main_c_12 main_v49 (cmpi .sgt),
    nullary main_c_13 (constantI S_ 32 1#32),
    binary main_v46 main_c_13 main_v50 maxsi,
    unary main_v50 main_v51 (sitofp .f32),
    binary main_v48 main_v51 main_v52 Host.divf,
    nullary main_cst_14 (constant S_ .f32 0x00000000#32),
    TRef.ternary (.of main_v49) (.of main_v52) (.of main_cst_14) main_call5.v0 select ]

-- eighty-seven binds re-associated: the rewrite under the chain recurses once per statement
set_option maxRecDepth 8192 in
set_option maxHeartbeats 4000000 in
/-- @main is that straight line: the helpers' definitions unfolded at their calls, both sides are one chain of
    operation steps once the sequencing is reassociated. -/
theorem main_eq (c : Dev nD) : main (F := F) c = seq (opsA ++ opsB) := by
  rw [seq_append]
  simp only [main, main_part0, main_part1, fn_argmax.body, fn_norm.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., unary_bufs_sub .., unary_bufs_sub .., unary_bufs_sub .., binary_bufs_sub .., nullary_bufs_sub ..,
    nullary_bufs_sub .., nullary_bufs_sub .., unary_bufs_sub .., binary_bufs_sub .., binary_bufs_sub .., unary_bufs_sub ..,
    binary_bufs_sub .., unary_bufs_sub ..,
    nullary_bufs_sub .., nullary_bufs_sub .., nullary_bufs_sub .., quaternary_bufs_sub .., quaternary_bufs_sub ..,
    nullary_bufs_sub .., nullary_bufs_sub .., nullary_bufs_sub .., quaternary_bufs_sub .., quaternary_bufs_sub ..,
    nullary_bufs_sub .., binary_bufs_sub .., nullary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩

theorem opsB_sub : (opsB : List (HloOp τ sig (Elt F))).Forall fun op => op.bufs ⊆ tcRefs τ sig :=
  ⟨binary_bufs_sub .., nullary_bufs_sub .., unary_bufs_sub .., binary_bufs_sub ..,
    binary_bufs_sub .., nullary_bufs_sub .., binary_bufs_sub .., unary_bufs_sub ..,
    binary_bufs_sub .., nullary_bufs_sub .., unary_bufs_sub .., binary_bufs_sub ..,
    binary_bufs_sub .., nullary_bufs_sub .., binary_bufs_sub .., unary_bufs_sub ..,
    binary_bufs_sub .., nullary_bufs_sub .., unary_bufs_sub .., binary_bufs_sub .., nullary_bufs_sub .., unary_bufs_sub ..,
    binary_bufs_sub .., unary_bufs_sub .., nullary_bufs_sub .., binary_bufs_sub .., nullary_bufs_sub ..,
    unary_bufs_sub .., unary_bufs_sub .., ternary_bufs_sub ..,
    nullary_bufs_sub .., binary_bufs_sub .., nullary_bufs_sub .., binary_bufs_sub .., nullary_bufs_sub .., binary_bufs_sub ..,
    unary_bufs_sub .., binary_bufs_sub .., nullary_bufs_sub .., ternary_bufs_sub ..⟩

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor

/-- Running one list and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- On every device, for any float values, from any memory with zero counters: every weakly fair execution of the
    reference terminates, and each buffer then holds what the loss operations leave from what the selection left
    from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsB (after opsA (launchContents m c)) (Proc.devRef .tc b) := by
  have h := run_seq scopedRefs_eq scopedSems_eq defs main (fun _ => opsA ++ opsB) main_eq
    (fun _ => List.forall_iff_forall_mem.mpr fun op hop => by
      rcases List.mem_append.mp hop with h | h
      · exact (List.forall_iff_forall_mem.mp opsA_sub) op h
      · exact (List.forall_iff_forall_mem.mp opsB_sub) op h) m ρ
    (fun _ op hop => by
      rcases List.mem_append.mp hop with h | h
      · exact (List.forall_iff_forall_mem.mp opsA_fresh) op h
      · exact (List.forall_iff_forall_mem.mp opsB_fresh) op h)
  exact (θ_run defs _ _).mono (fun _ h c b => by rw [← after_append]; exact h c b) h

end Triplet.Reference

end
-- ==== Proof.RefValue.lean ====
/-
  What the reference computes, as the shared pure functions of its two arguments.

  The first 47 operations leave the validity flags, the positive rows and the negative rows at `Selection.valid`,
  `Selection.positive`, `Selection.negative` of the launch contents of the arguments; the remaining 40 leave the result
  at `Loss.meanByWordCount` of the flags and `Loss.hinge` of the three row arrays they find. Both facts are the
  operations' own text composed, buffer by buffer; no operation is opened.
-/
import proofs.«111762_j76759655514708_2_alg».proof.Proof.RefProgram
import proofs.«111762_j76759655514708_2_alg».proof.Proof.Loss

noncomputable section

namespace Triplet.Reference

open Cert.ReferenceIdeal Cert.ReferenceIdeal.Gen Idealize.ShloMosaic Idealize.ShloMosaic.TcCoe Idealize.SL.Sem Idealize.ShloMosaic.StableHlo
open Triplet

variable {F : FTy → Type} [FloatOps F]

section Selection

attribute [local irreducible] Host.reduce Host.reduce2 Host.gather

set_option maxRecDepth 8192 in
set_option maxHeartbeats 2000000 in
/-- After the selection the flags' buffer holds `valid` of the labels. -/
theorem sel_valid (V : Valuation τ sig (Elt F)) :
    after opsA V (Proc.devRef .tc main_v17) = Selection.valid (V (Proc.devRef .tc main_arg1)) := by
  after_results_simp
  rfl

set_option maxRecDepth 8192 in
set_option maxHeartbeats 2000000 in
/-- After the selection the first gather's buffer holds the positive partners' rows. -/
theorem sel_positive (V : Valuation τ sig (Elt F)) :
    after opsA V (Proc.devRef .tc main_v24)
      = Selection.positive (F := F) (V (Proc.devRef .tc main_arg0)) (V (Proc.devRef .tc main_arg1)) := by
  after_results_simp
  rfl

set_option maxRecDepth 8192 in
set_option maxHeartbeats 2000000 in
/-- After the selection the second gather's buffer holds the negative partners' rows. -/
theorem sel_negative (V : Valuation τ sig (Elt F)) :
    after opsA V (Proc.devRef .tc main_v31)
      = Selection.negative (F := F) (V (Proc.devRef .tc main_arg0)) (V (Proc.devRef .tc main_arg1)) := by
  after_results_simp
  rfl

/-- The selection writes neither argument. -/
theorem sel_arg0 (V : Valuation τ sig (Elt F)) :
    after opsA V (Proc.devRef .tc main_arg0) = V (Proc.devRef .tc main_arg0) := by
  after_results_simp
theorem sel_arg1 (V : Valuation τ sig (Elt F)) :
    after opsA V (Proc.devRef .tc main_arg1) = V (Proc.devRef .tc main_arg1) := by
  after_results_simp

end Selection

section Loss

attribute [local irreducible] Host.reduce Host.reduceAdd

set_option maxRecDepth 8192 in
set_option maxHeartbeats 2000000 in
/-- After the loss operations the result buffer holds the guarded mean of the hinge losses of the rows they found. -/
theorem loss_result (W : Valuation τ sig (Elt F)) :
    after opsB W (Proc.devRef .tc main_v53)
      = Loss.meanByWordCount (F := F) (W (Proc.devRef .tc main_v17))
          (Loss.hinge (W (Proc.devRef .tc main_arg0)) (W (Proc.devRef .tc main_v24)) (W (Proc.devRef .tc main_v31))) := by
  after_results_simp
  rfl

/-- The loss operations write neither argument. -/
theorem loss_arg0 (W : Valuation τ sig (Elt F)) :
    after opsB W (Proc.devRef .tc main_arg0) = W (Proc.devRef .tc main_arg0) := by
  after_results_simp
theorem loss_arg1 (W : Valuation τ sig (Elt F)) :
    after opsB W (Proc.devRef .tc main_arg1) = W (Proc.devRef .tc main_arg1) := by
  after_results_simp

end Loss

/-- The reference's result as one function of its arguments. -/
def out (x : FVec F Selection.Feat .f32) (tgt : IVec Selection.Rows 32) : FVec F Selection.Sc .f32 :=
  Loss.meanByWordCount (Selection.valid tgt) (Loss.hinge x (Selection.positive x tgt) (Selection.negative x tgt))

theorem result_eq (V : Valuation τ sig (Elt F)) :
    after opsB (after opsA V) (Proc.devRef .tc main_v53) = out (F := F) (V (Proc.devRef .tc main_arg0)) (V (Proc.devRef .tc main_arg1)) := by
  rw [loss_result, sel_valid, sel_positive, sel_negative, sel_arg0]
  rfl

/-- On every device, for any float values, from any memory with zero counters: every weakly fair execution of the
    reference terminates with its result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v53).trans (result_eq (launchContents m c)),
      (h c main_arg0).trans ((loss_arg0 _).trans (sel_arg0 _)),
      (h c main_arg1).trans ((loss_arg1 _).trans (sel_arg1 _))⟩)
    (run_all m ρ)

end Triplet.Reference

end
-- ==== Proof.LibFlagCount.lean ====
/-
  Counting one-bit flags: in 32-bit words that wrap around, in natural numbers, and in extended reals. Nothing here
  mentions a program.

  A flag is a one-bit word. Widened to 32 bits and added up as words, a family of flags gives the word of its natural
  count (`word_sum`); each widened flag read as a signed number and added up on the extended reals gives that natural
  count as a real (`real_sum`); the count is at most the number of members (`nat_sum_le`). So for fewer than 2^31
  members the word sum read as a signed number IS the count (`word_sum_toInt`): no wrap-around can happen.
-/
import Mathlib.Data.EReal.Basic
import Mathlib.Data.EReal.Operations
import Mathlib.Data.BitVec
import Mathlib.Algebra.BigOperators.Group.Finset.Basic
import Mathlib.Algebra.Order.BigOperators.Group.Finset

noncomputable section

open scoped BigOperators

namespace Cert.LibFlagCount

variable {ι : Type*}

/-- A one-bit word is 0 or 1. -/
theorem bit_cases (x : BitVec 1) : x = 0#1 ∨ x = 1#1 := by
  rcases BitVec.eq_zero_or_eq_one x with h | h
  · exact Or.inl h
  · exact Or.inr h

/-- The widened flags added as 32-bit words: the word of the natural count. -/
theorem word_sum (S : Finset ι) (f : ι → BitVec 1) :
    ∑ i ∈ S, (f i).setWidth 32 = BitVec.ofNat 32 (∑ i ∈ S, (f i).toNat) := by
  classical
  induction S using Finset.induction_on with
  | empty => simp
  | insert a S ha ih =>
    rw [Finset.sum_insert ha, Finset.sum_insert ha, ih, BitVec.ofNat_add]
    congr 1
    rcases bit_cases (f a) with h | h <;> rw [h] <;> decide

/-- The widened flags read signed and added on the extended reals: the natural count as a real. -/
theorem real_sum (S : Finset ι) (f : ι → BitVec 1) :
    ∑ i ∈ S, (((((f i).setWidth 32).toInt : ℤ) : ℝ) : EReal) = (((∑ i ∈ S, (f i).toNat : ℕ) : ℝ) : EReal) := by
  classical
  induction S using Finset.induction_on with
  | empty => simp
  | insert a S ha ih =>
    rw [Finset.sum_insert ha, Finset.sum_insert ha, ih, Nat.cast_add, EReal.coe_add]
    congr 2
    rcases bit_cases (f a) with h | h <;> rw [h] <;> simp

/-- The natural count is at most the number of members. -/
theorem nat_sum_le (S : Finset ι) (f : ι → BitVec 1) : ∑ i ∈ S, (f i).toNat ≤ S.card := by
  calc ∑ i ∈ S, (f i).toNat ≤ ∑ _i ∈ S, 1 := Finset.sum_le_sum fun i _ => by
        rcases bit_cases (f i) with h | h <;> rw [h] <;> decide
    _ = S.card := by simp

/-- With fewer than 2^31 members the word sum, read as a signed number, is the natural count. -/
theorem word_sum_toInt (S : Finset ι) (f : ι → BitVec 1) (hS : S.card < 2 ^ 31) :
    (∑ i ∈ S, (f i).setWidth 32).toInt = ((∑ i ∈ S, (f i).toNat : ℕ) : ℤ) := by
  have h := nat_sum_le S f
  rw [word_sum, BitVec.toInt_eq_toNat_of_lt (by rw [BitVec.toNat_ofNat]; omega), BitVec.toNat_ofNat,
    Nat.mod_eq_of_lt (by omega)]

end Cert.LibFlagCount

end
-- ==== Proof.ValidCount.lean ====
/-
  The number of valid anchors, counted as a word and counted as a float, gives one guarded mean.

  Write k for the number of set flags among the N = 8192. The reference adds the flags as 32-bit words: with
  k ≤ 8192 < 2³¹ nothing wraps, so the word read as a signed number is k, the test "> 0" is k > 0, and the integer
  maximum with 1 converted to a float is the real max(k, 1). The kernel's program converts each flag to the real 0 or
  1 and adds them on the extended reals: the real k, tested against 0 and maximised with 1 there. So the two spellings
  of the guarded mean are one function of the flags and the losses (`mean_eq`), whatever the losses are.
-/
import proofs.«111762_j76759655514708_2_alg».proof.Proof.Loss
import proofs.«111762_j76759655514708_2_alg».proof.Proof.LibFlagCount
import proofs.«111762_j76759655514708_2_alg».proof.Proof.LibMatrixAtIndex
import Idealize.ShloMosaic.Lib.IdealHost

noncomputable section

open scoped BigOperators

namespace Triplet.Count

open Idealize.ShloMosaic Idealize.ShloMosaic.ValueIdx Triplet Triplet.Selection

/-- The number of set flags. -/
def count (v : IVec Rows 1) : ℕ := ∑ i : Rows.Idx, (v i).toNat

/-- There are 8192 anchors, so at most that many set flags. -/
theorem count_le (v : IVec Rows 1) : count v ≤ 8192 := by
  have h := Cert.LibFlagCount.nat_sum_le (Finset.univ : Finset Rows.Idx) v
  rw [Finset.card_univ, Shape.card_idx] at h
  exact h

/-! ## Sums -/

/-- Adding 32-bit words from 0 over a finite set is their sum. -/
theorem fold_addi {ι : Type*} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

/-- Natural numbers added as reals on the extended reals. -/
theorem sum_coe_nat {ι : Type*} (S : Finset ι) (f : ι → ℕ) :
    ∑ i ∈ S, (((f i : ℕ) : ℝ) : EReal) = (((∑ i ∈ S, f i : ℕ) : ℝ) : EReal) := by
  classical
  induction S using Finset.induction_on with
  | empty => simp
  | insert a S ha ih => rw [Finset.sum_insert ha, Finset.sum_insert ha, ih, Nat.cast_add, EReal.coe_add]

/-! ## The two counts -/

/-- The word count is the word of the number of set flags. -/
theorem wordCount_eq (v : IVec Rows 1) : Loss.wordCount v ix0 = BitVec.ofNat 32 (count v) := by
  unfold Loss.wordCount
  rw [Host.reduce_eq_fold, Finset.filter_true_of_mem fun i _ => funext fun b => b.elim0]
  show Finset.univ.fold IntOp.addi 0#32 (fun i => (v i).setWidth 32) = _
  rw [fold_addi, Cert.LibFlagCount.word_sum]
  rfl

/-- The float count is the number of set flags as a real. -/
theorem floatCount_eq (v : IVec Rows 1) : Loss.floatCount (F := Ideal) v ix0 = (((count v : ℕ) : ℝ) : EReal) := by
  unfold Loss.floatCount
  rw [hostReduceAdd_apply, Ideal.hostReduceAdd_total Loss.rows_sc (fun b => b.elim0), constant_apply,
    Ideal.ofBits_zero_f32, zero_add]
  show ∑ i : Rows.Idx, ((((v i).toNat : ℕ) : ℝ) : EReal) = _
  exact sum_coe_nat Finset.univ fun i => (v i).toNat

/-! ## The tests and the divisors, on a count that cannot wrap -/

/-- A count of at most 8192 read back from its word as a signed number. -/
theorem toInt_ofNat (k : ℕ) (hk : k ≤ 8192) : (BitVec.ofNat 32 k).toInt = (k : ℤ) := by
  rw [BitVec.toInt_eq_toNat_of_lt (by rw [BitVec.toNat_ofNat]; omega), BitVec.toNat_ofNat, Nat.mod_eq_of_lt (by omega)]

/-- "count > 0" as a signed word test and as a test on the extended reals. -/
theorem sgt_zero (k : ℕ) (hk : k ≤ 8192) :
    IntOp.cmpi .sgt (BitVec.ofNat 32 k) 0#32 = Ideal.cmp .ogt (((k : ℕ) : ℝ) : EReal) 0 := by
  show BitVec.ofBool ((0#32).slt (BitVec.ofNat 32 k)) = BitVec.ofBool (decide ((0 : EReal) < (((k : ℕ) : ℝ) : EReal)))
  refine congrArg BitVec.ofBool ?_
  have h1 : (0#32).slt (BitVec.ofNat 32 k) = decide ((0 : ℤ) < (k : ℤ)) := by
    rw [BitVec.slt, toInt_ofNat k hk]; rfl
  rw [h1]
  rcases Nat.eq_zero_or_pos k with h0 | hpos
  · subst h0; simp
  · have hz : (0 : ℤ) < (k : ℤ) := by exact_mod_cast hpos
    have hr : (0 : EReal) < (((k : ℕ) : ℝ) : EReal) := by exact_mod_cast hpos
    rw [decide_eq_true hz, decide_eq_true hr]

/-- max(count, 1) as a signed word maximum converted to a real, and as a maximum on the extended reals. -/
theorem max_one (k : ℕ) (hk : k ≤ 8192) :
    ((((IntOp.maxsi (BitVec.ofNat 32 k) 1#32).toInt : ℤ) : ℝ) : EReal) = max (((k : ℕ) : ℝ) : EReal) 1 := by
  have h1 : (1#32).slt (BitVec.ofNat 32 k) = decide ((1 : ℤ) < (k : ℤ)) := by
    rw [BitVec.slt, toInt_ofNat k hk]; rfl
  show (((((if (1#32).slt (BitVec.ofNat 32 k) then BitVec.ofNat 32 k else 1#32) : BitVec 32).toInt : ℤ) : ℝ) : EReal) = _
  rw [h1]
  by_cases hlt : (1 : ℤ) < (k : ℤ)
  · rw [decide_eq_true hlt, if_pos rfl, toInt_ofNat k hk]
    have : (1 : EReal) ≤ (((k : ℕ) : ℝ) : EReal) := by
      have : (1 : ℝ) ≤ ((k : ℕ) : ℝ) := by exact_mod_cast hlt.le
      exact_mod_cast this
    rw [max_eq_left this]; norm_cast
  · rw [decide_eq_false hlt, if_neg (by decide)]
    have hk1 : (((k : ℕ) : ℝ) : EReal) ≤ 1 := by
      have : ((k : ℕ) : ℝ) ≤ (1 : ℝ) := by exact_mod_cast (not_lt.mp hlt)
      exact_mod_cast this
    rw [max_eq_right hk1]
    norm_num

/-! ## The guarded mean -/

/-- The two guards and the two divisors agree on a count that cannot wrap, whatever the dividend. -/
theorem guarded_eq (k : ℕ) (hk : k ≤ 8192) (T : EReal) :
    Scalar.select (Ideal.cmp .ogt (((k : ℕ) : ℝ) : EReal) 0) (Ideal.div T (max (((k : ℕ) : ℝ) : EReal) 1)) (0 : EReal)
      = Scalar.select (IntOp.cmpi .sgt (BitVec.ofNat 32 k) 0#32)
          (Ideal.div T ((((IntOp.maxsi (BitVec.ofNat 32 k) 1#32).toInt : ℤ) : ℝ) : EReal)) (0 : EReal) := by
  rw [sgt_zero k hk, max_one k hk]

/-- Integer comparison, integer maximum and an integer constant, read at an index. -/
theorem cmpi_at {s : Shape} {w : Nat} (p : CmpIPredicate) (a b : IVec s w) (i : s.Idx) :
    cmpi p a b i = IntOp.cmpi p (a i) (b i) := rfl
theorem maxsi_at {s : Shape} {w : Nat} (a b : IVec s w) (i : s.Idx) : maxsi a b i = IntOp.maxsi (a i) (b i) := rfl
theorem constantI_at {s : Shape} {w : Nat} (x : BitVec w) (i : s.Idx) : constantI s w x i = x := rfl

/-- Counting the valid anchors as floats or as words gives the same guarded mean of any losses. -/
theorem mean_eq (v : IVec Rows 1) (l : FVec Ideal Rows .f32) :
    Loss.meanByFloatCount (F := Ideal) v l = Loss.meanByWordCount (F := Ideal) v l := by
  funext j
  rw [eq_ix0 j]
  unfold Loss.meanByFloatCount Loss.meanByWordCount
  simp only [select_apply, cmpf_apply, hostDivf_apply, maximumf_apply, sitofp_apply, cmpi_at, maxsi_at, constantI_at,
    constant_apply]
  rw [floatCount_eq, wordCount_eq, Ideal.ofBits_zero_f32, Cert.KernelIdeal.Pay.ofBits_one_f32]
  exact guarded_eq (count v) (count_le v) _

end Triplet.Count

end
-- ==== Proof.lean ====
/-
  A triplet margin loss with first-match triplet selection: a tiled kernel against its host reference.

  For N = 8192 anchors with D = 512 features and integer labels, both programs choose for every anchor the first
  other anchor with the same label (the positive) and the first anchor with another label (the negative), call an
  anchor valid when both exist, and return the mean over the valid anchors of
      max(‖x − p + ε‖₂ − ‖x − n + ε‖₂ + 1, 0),
  or 0 when no anchor is valid. The kernel's program does the selection and the two row gathers on the host, computes
  the per-anchor losses in a region of 8 grid points of 1024 rows each, and finishes on the host; the reference does
  everything on the host.

  At the exact instance the two results are one function of the arguments:
  * the selection is the same 47 operations on both sides (Proof/Selection.lean names them once; Proof/KernelEntry.lean
    and Proof/RefValue.lean read each side's buffers against those names, and nothing ever opens them);
  * a block's stored column, read at a row, and the reference's loss vector, read at an anchor, are the same sum over
    the row's coordinates (Proof/RowLoss.lean, Proof/Payload.lean), and the 8 blocks tile the column
    (Proof/LossArray.lean), so the reshaped column is the reference's loss vector (Proof/KernelValue.lean);
  * the reference counts the valid anchors as a 32-bit integer and the kernel's program as a float sum; with at most
    8192 anchors the integer cannot wrap, so both guards and both divisors agree (Proof/ValidCount.lean).
  No step uses that the inputs are finite: sums on the extended reals are reordered only as sums of a commutative
  monoid, and every other operation is applied to equal arguments on both sides.

  The frames of the two kernel programs are the generated frame certificates; the reference's frame is its run
  (Proof/RefProgram.lean) with the result dropped; the idealization rewrote nothing, so `preserves` is trivial.
-/
import proofs.«111762_j76759655514708_2_alg».proof.Defs
import proofs.«111762_j76759655514708_2_alg».proof.Proof.Gen.Kernel
import proofs.«111762_j76759655514708_2_alg».proof.Proof.Gen.Kernel.Frame
import proofs.«111762_j76759655514708_2_alg».proof.Proof.Gen.KernelIdeal
import proofs.«111762_j76759655514708_2_alg».proof.Proof.Gen.KernelIdeal.Frame
import proofs.«111762_j76759655514708_2_alg».proof.Proof.Gen.ReferenceIdeal
import proofs.«111762_j76759655514708_2_alg».proof.Proof.Gen.Pre_finite_inputs
import proofs.«111762_j76759655514708_2_alg».proof.Proof.KernelValue
import proofs.«111762_j76759655514708_2_alg».proof.Proof.RefValue
import proofs.«111762_j76759655514708_2_alg».proof.Proof.ValidCount
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Triplet.Reference.run (F := Ideal) m ρ)

/-- The idealization rewrote no operation. -/
theorem preserves : Cert.preserves_Kernel_KernelIdeal := trivial

/-- The two programs' results are one function of the arguments: they differ only in how the valid anchors are
    counted. -/
theorem out_eq (x : FVec Ideal Triplet.Selection.Feat .f32) (tgt : IVec Triplet.Selection.Rows 32) :
    Triplet.Reference.out (F := Ideal) x tgt = Triplet.Kernel.out x tgt :=
  (Triplet.Count.mean_eq _ _).symm

/-- From memories agreeing on the arguments both programs run, to equal results. -/
theorem algebraic : Cert.algebraic_KernelIdeal_ReferenceIdeal := by
  intro m ρ m' ρ' _ hagree
  refine ⟨_, Triplet.Kernel.run m ρ, ?_⟩
  refine (θ_run Cert.ReferenceIdeal.defs _ _).mono (fun _ h c => ⟨(h c).1.trans ?_, (h c).2⟩)
    (Triplet.Reference.run (F := Ideal) m' ρ')
  rw [(hagree c).1, (hagree c).2]
  exact out_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
